-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2000 : Shape := ⟨2, ![65536, 2000]⟩
abbrev S_ : Shape := ⟨0, ![]⟩

class Facts : Prop where
  bcast_S_S65536x2000 : S_.BroadcastsInDim S65536x2000 (![] : Fin 0 → Fin S65536x2000.rank)
  reducesTo_S65536x2000_S_d0_1 : S65536x2000.ReducesTo [0, 1] S_
  h_S_ : 0 < S_.numel

variable [Facts]

def fn {F : FTy → Type} [FloatOps F] (main_arg0 : FVec F S65536x2000 .f32) : IVec S_ 1 :=
  let main_v0 : FVec F S65536x2000 .f32 := Host.absf main_arg0
  let main_cst : FVec F S_ .f32 := constant S_ .f32 0x7F800000#32
  let main_v1 : FVec F S65536x2000 .f32 := broadcastInDim S65536x2000 ![] bcast_S_S65536x2000 main_cst
  let main_v2 : IVec S65536x2000 1 := cmpf .olt main_v0 main_v1
  let main_c : IVec S_ 1 := constantI S_ 1 1#1
  let main_v3 : IVec S_ 1 := (fun x v => Host.reduce IntOp.andi x v reducesTo_S65536x2000_S_d0_1 h_S_) main_v2 main_c
  main_v3
-- ==== Kernel.lean ====
abbrev S65536x2000 : Shape := ⟨2, ![65536, 2000]⟩
abbrev S2000x1000 : Shape := ⟨2, ![2000, 1000]⟩
abbrev S_ : Shape := ⟨0, ![]⟩
abbrev S65536x1000 : Shape := ⟨2, ![65536, 1000]⟩
abbrev S65536x1 : Shape := ⟨2, ![65536, 1]⟩
abbrev S512x2000 : Shape := ⟨2, ![512, 2000]⟩
abbrev S512x1000 : Shape := ⟨2, ![512, 1000]⟩
abbrev S512x1 : Shape := ⟨2, ![512, 1]⟩
abbrev S512 : Shape := ⟨1, ![512]⟩
abbrev S65536 : Shape := ⟨1, ![65536]⟩

abbrev nBuf : Space → Nat
  | .hbm => 26
  | .vmem => 7
  | .smem => 0
  | _ => 0

abbrev bufTy : (tb : Table) → Fin (tcTables nBuf tb) → BufTy
  | .hbm, ⟨0, _⟩ => ⟨S65536x2000, .f32⟩
  | .hbm, ⟨1, _⟩ => ⟨S2000x1000, .i32⟩
  | .hbm, ⟨2, _⟩ => ⟨S2000x1000, .i32⟩
  | .hbm, ⟨3, _⟩ => ⟨S_, .i32⟩
  | .hbm, ⟨4, _⟩ => ⟨S_, .i32⟩
  | .hbm, ⟨5, _⟩ => ⟨S2000x1000, .i32⟩
  | .hbm, ⟨6, _⟩ => ⟨S2000x1000, .i32⟩
  | .hbm, ⟨7, _⟩ => ⟨S2000x1000, .i32⟩
  | .hbm, ⟨8, _⟩ => ⟨S_, .i32⟩
  | .hbm, ⟨9, _⟩ => ⟨S2000x1000, .i32⟩
  | .hbm, ⟨10, _⟩ => ⟨S2000x1000, .i1⟩
  | .hbm, ⟨11, _⟩ => ⟨S2000x1000, .i32⟩
  | .hbm, ⟨12, _⟩ => ⟨S2000x1000, .i32⟩
  | .hbm, ⟨13, _⟩ => ⟨S_, .i32⟩
  | .hbm, ⟨14, _⟩ => ⟨S2000x1000, .i32⟩
  | .hbm, ⟨15, _⟩ => ⟨S2000x1000, .i1⟩
  | .hbm, ⟨16, _⟩ => ⟨S2000x1000, .i1⟩
  | .hbm, ⟨17, _⟩ => ⟨S_, .i32⟩
  | .hbm, ⟨18, _⟩ => ⟨S2000x1000, .i32⟩
  | .hbm, ⟨19, _⟩ => ⟨S2000x1000, .i32⟩
  | .hbm, ⟨20, _⟩ => ⟨S2000x1000, .i32⟩
  | .hbm, ⟨21, _⟩ => ⟨S2000x1000, .i1⟩
  | .hbm, ⟨22, _⟩ => ⟨S2000x1000, .bf16⟩
  | .hbm, ⟨23, _⟩ => ⟨S65536x1000, .f32⟩
  | .hbm, ⟨24, _⟩ => ⟨S65536x1, .f32⟩
  | .hbm, ⟨25, _⟩ => ⟨S65536, .f32⟩
  | .local _ .vmem, ⟨0, _⟩ => ⟨S512x2000, .f32⟩
  | .local _ .vmem, ⟨1, _⟩ => ⟨S512x2000, .f32⟩
  | .local _ .vmem, ⟨2, _⟩ => ⟨S2000x1000, .bf16⟩
  | .local _ .vmem, ⟨3, _⟩ => ⟨S512x1000, .f32⟩
  | .local _ .vmem, ⟨4, _⟩ => ⟨S512x1000, .f32⟩
  | .local _ .vmem, ⟨5, _⟩ => ⟨S512x1, .f32⟩
  | .local _ .vmem, ⟨6, _⟩ => ⟨S512x1, .f32⟩
  | _, _ => ⟨S65536x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_v6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2000x1000 : S_.BroadcastsInDim S2000x1000 (![] : Fin 0 → Fin S2000x1000.rank)
  inb_S512x2000_S512x2000_0_0 : ∀ a, (![0, 0] : Fin 2 → Nat) a + S512x2000.size a ≤ S512x2000.size a
  h_S512x2000 : 0 < S512x2000.numel
  natLt_1_32 : 1 < 32
  bitsLt_bf16_f32 : FTy.bits .bf16 < FTy.bits .f32
  inb_S2000x1000_S2000x1000_0_0 : ∀ a, (![0, 0] : Fin 2 → Nat) a + S2000x1000.size a ≤ S2000x1000.size a
  h_S2000x1000 : 0 < S2000x1000.numel
  shapeCasts_S2000x1000_S2000x1000 : S2000x1000.ShapeCasts S2000x1000
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S65536x1_S65536 : S65536x1.ShapeCasts S65536
  dot_S512x2000_S2000x1000_S512x1000_1_0_0_1_n_n_wf : DotDims.WF S512x2000 S2000x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2000.size a ≤ S65536x2000.size a
  hwx0_0 : ∀ i : grid0.Coords, EltTy.bits .f32 = 32 ∨ (Rect.block (s := S65536x2000) S512x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x1000.size a ≤ S2000x1000.size a
  hwx0_1 : ∀ i : grid0.Coords, EltTy.bits .bf16 = 32 ∨ (Rect.block (s := S2000x1000) S2000x1000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S65536x1000.size a
  hwx0_2 : ∀ i : grid0.Coords, EltTy.bits .f32 = 32 ∨ (Rect.block (s := S65536x1000) S512x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S65536x1.size a
  hwx0_3 : ∀ i : grid0.Coords, EltTy.bits .f32 = 32 ∨ (Rect.block (s := S65536x1) S512x1.size (cc0_transform_3 i) (hinb0_3 i)).WholeWords (EltTy.packing .f32)

variable [Facts₀]

def dot_S512x2000_S2000x1000_S512x1000_1_0_0_1_n_n : DotDims S512x2000 S2000x1000 S512x1000 where
  lhsContracting := [1]
  rhsContracting := [0]
  lhsNonContracting := [0]
  rhsNonContracting := [1]
  lhsBatch := []
  rhsBatch := []
  wf := dot_S512x2000_S2000x1000_S512x1000_1_0_0_1_n_n_wf

abbrev win0_0 : Pipeline.Window sig grid0 :=
  Pipeline.Window.ofSpec (Memref.whole main_arg0) S512x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S512x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x2000 : Shape := ⟨2, ![65536, 2000]⟩
abbrev S_ : Shape := ⟨0, ![]⟩
abbrev S65536x1000x2 : Shape := ⟨3, ![65536, 1000, 2]⟩
abbrev S65536x1000 : Shape := ⟨2, ![65536, 1000]⟩
abbrev S65536 : Shape := ⟨1, ![65536]⟩

abbrev nBuf : Space → Nat
  | .hbm => 29
  | .vmem => 0
  | .smem => 0
  | _ => 0

abbrev bufTy : (tb : Table) → Fin (tcTables nBuf tb) → BufTy
  | .hbm, ⟨0, _⟩ => ⟨S65536x2000, .f32⟩
  | .hbm, ⟨1, _⟩ => ⟨S_, .f32⟩
  | .hbm, ⟨2, _⟩ => ⟨S65536x2000, .f32⟩
  | .hbm, ⟨3, _⟩ => ⟨S65536x2000, .i1⟩
  | .hbm, ⟨4, _⟩ => ⟨S65536x2000, .f32⟩
  | .hbm, ⟨5, _⟩ => ⟨S65536x1000x2, .f32⟩
  | .hbm, ⟨6, _⟩ => ⟨S_, .f32⟩
  | .hbm, ⟨7, _⟩ => ⟨S65536x1000, .f32⟩
  | .hbm, ⟨8, _⟩ => ⟨S_, .f32⟩
  | .hbm, ⟨9, _⟩ => ⟨S65536x1000, .f32⟩
  | .hbm, ⟨10, _⟩ => ⟨S65536x1000, .i1⟩
  | .hbm, ⟨11, _⟩ => ⟨S65536x1000, .f32⟩
  | .hbm, ⟨12, _⟩ => ⟨S_, .f32⟩
  | .hbm, ⟨13, _⟩ => ⟨S65536x1000, .f32⟩
  | .hbm, ⟨14, _⟩ => ⟨S65536x1000, .i1⟩
  | .hbm, ⟨15, _⟩ => ⟨S_, .f32⟩
  | .hbm, ⟨16, _⟩ => ⟨S65536x1000, .f32⟩
  | .hbm, ⟨17, _⟩ => ⟨S65536x1000, .i1⟩
  | .hbm, ⟨18, _⟩ => ⟨S65536x1000, .i1⟩
  | .hbm, ⟨19, _⟩ => ⟨S_, .f32⟩
  | .hbm, ⟨20, _⟩ => ⟨S65536x1000, .f32⟩
  | .hbm, ⟨21, _⟩ => ⟨S65536x1000, .f32⟩
  | .hbm, ⟨22, _⟩ => ⟨S65536x1000, .f32⟩
  | .hbm, ⟨23, _⟩ => ⟨S_, .f32⟩
  | .hbm, ⟨24, _⟩ => ⟨S_, .f32⟩
  | .hbm, ⟨25, _⟩ => ⟨S65536x1000, .f32⟩
  | .hbm, ⟨26, _⟩ => ⟨S65536x1000, .f32⟩
  | .hbm, ⟨27, _⟩ => ⟨S_, .f32⟩
  | .hbm, ⟨28, _⟩ => ⟨S65536, .f32⟩
  | _, _ => ⟨S65536x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S65536x2000 : S_.BroadcastsInDim S65536x2000 (![] : Fin 0 → Fin S65536x2000.rank)
  shapeCasts_S65536x2000_S65536x1000x2 : S65536x2000.ShapeCasts S65536x1000x2
  reducesTo_S65536x1000x2_S65536x1000_d2 : S65536x1000x2.ReducesTo [2] S65536x1000
  h_S_ : 0 < S_.numel
  bcast_S_S65536x1000 : S_.BroadcastsInDim S65536x1000 (![] : Fin 0 → Fin S65536x1000.rank)
  reducesTo_S65536x1000_S65536_d1 : S65536x1000.ReducesTo [1] S65536

variable [Facts₀]

class Facts : Prop extends Facts₀ where

variable [Facts]
-- ==== Proof.Spec.lean ====
/-
  The majority-vote decoder as a function of the received array, row by row.

  A received value is decided hard: 1 where it exceeds one half, else 0.  Message position i of a row collects the two
  consecutive hard decisions at codeword positions 2i and 2i+1; their sum s is 0, 1 or 2.  The decoded bit is 1 where
  s exceeds 1.  A position is mixed where 0 < s < 2, and then contributes min(s, 2 - s) to the row's error count, else 0.
  The constants one half, one, zero and two enter only through their float words, the same words in both programs;
  only the zero a sum starts from is read as the number 0.
-/
import Idealize.ShloMosaic.PureOps.Ideal.Laws
import Idealize.ShloMosaic.Lib.ValueIdx

noncomputable section

namespace Cert.Decode

open Idealize.ShloMosaic Idealize.ShloMosaic.ValueIdx
open scoped BigOperators

/-- A one-bit word as the number 0 or 1. -/
def bit01 (b : BitVec 1) : EReal := ((b.toNat : ℝ) : EReal)

theorem bit01_one : bit01 1#1 = 1 := by simp [bit01]
theorem bit01_zero : bit01 0#1 = 0 := by simp [bit01]

/-- Widening a one-bit word to 32 bits and reading it signed gives the same 0 or 1 as reading the bit unsigned. -/
theorem setWidth_toInt_eq_bit01 (b : BitVec 1) : (((b.setWidth 32).toInt : ℝ) : EReal) = bit01 b := by
  rcases BitVec.eq_zero_or_eq_one b with h | h <;> subst h <;> simp [bit01]

/-- The hard decision on one received value: 1 where it exceeds one half. -/
def hard (x : EReal) : EReal := bit01 (Ideal.cmp .ogt x (Ideal.ofBits .f32 0x3F000000#32))

/-- The number of ones among the two received values that vote for message position i. -/
def onesRow (row : Fin 2000 → EReal) (i : Fin 1000) : EReal :=
  hard (row ⟨2 * i.val, by omega⟩) + hard (row ⟨2 * i.val + 1, by omega⟩)

/-- The decoded bit from the count of ones: 1 where the count exceeds one. -/
def decOf (s : EReal) : EReal := bit01 (Ideal.cmp .ogt s (Ideal.ofBits .f32 0x3F800000#32))

/-- The error contribution from the count of ones: min(s, 2 - s) where 0 < s < 2, else 0. -/
def errOf (s : EReal) : EReal :=
  Scalar.select (IntOp.andi (Ideal.cmp .ogt s (Ideal.ofBits .f32 0x00000000#32)) (Ideal.cmp .olt s (Ideal.ofBits .f32 0x40000000#32)))
    (min s (Ideal.ofBits .f32 0x40000000#32 - s)) (Ideal.ofBits .f32 0x00000000#32)

/-- A row's decoded bit at message position i. -/
def decRow (row : Fin 2000 → EReal) (i : Fin 1000) : EReal := decOf (onesRow row i)

/-- A row's error count: the contributions of its thousand message positions, summed. -/
def errRow (row : Fin 2000 → EReal) : EReal := ∑ i : Fin 1000, errOf (onesRow row i)

/-- Row b of an array with two thousand columns. -/
def rowOf {n : ℕ} (X : (⟨2, ![n, 2000]⟩ : Shape).Idx → EReal) (b : Fin n) : Fin 2000 → EReal := fun k => X (ix2 b k)

/-- The decoded message array, entry (b, i). -/
def decoded {n : ℕ} (X : (⟨2, ![n, 2000]⟩ : Shape).Idx → EReal) : (⟨2, ![n, 1000]⟩ : Shape).Idx → EReal :=
  fun j => decRow (rowOf X (j 0)) (j 1)

/-- The error counts kept as a column, entry (b, 0). -/
def errColumn {n : ℕ} (X : (⟨2, ![n, 2000]⟩ : Shape).Idx → EReal) : (⟨2, ![n, 1]⟩ : Shape).Idx → EReal :=
  fun j => errRow (rowOf X (j 0))

/-- The error counts as a vector, entry b. -/
def errCount {n : ℕ} (X : (⟨2, ![n, 2000]⟩ : Shape).Idx → EReal) : (⟨1, ![n]⟩ : Shape).Idx → EReal :=
  fun j => errRow (rowOf X (j 0))

/-- The grouping matrix: entry (k, q) is 1 where codeword position k votes for message position q, that is k / 2 = q,
    and 0 elsewhere. -/
def IsPool (p : (⟨2, ![2000, 1000]⟩ : Shape).Idx → EReal) : Prop :=
  ∀ (k : Fin 2000) (q : Fin 1000), p (ix2 k q) = if k.val / 2 = q.val then 1 else 0

/-- Summing a row of 0/1 votes against the grouping matrix, whose entry (k, q) is 1 where k / 2 = q and 0 elsewhere,
    leaves the two votes of the group: every other product is a vote times zero, which is zero for any extended real. -/
theorem sum_pool (f : Fin 2000 → EReal) (g : Fin 2000 → EReal) (q : Fin 1000)
    (hg : ∀ k : Fin 2000, g k = if k.val / 2 = q.val then 1 else 0) :
    ∑ k : Fin 2000, f k * g k = f ⟨2 * q.val, by omega⟩ + f ⟨2 * q.val + 1, by omega⟩ := by
  have h1 : ∀ k : Fin 2000, f k * g k = if k.val / 2 = q.val then f k else 0 := fun k => by
    rw [hg k]; split <;> simp
  rw [Finset.sum_congr rfl fun k _ => h1 k, ← Finset.sum_filter]
  have hset : (Finset.univ.filter fun k : Fin 2000 => k.val / 2 = q.val)
      = {(⟨2 * q.val, by omega⟩ : Fin 2000), (⟨2 * q.val + 1, by omega⟩ : Fin 2000)} := by
    ext k
    simp only [Finset.mem_filter, Finset.mem_univ, true_and, Finset.mem_insert, Finset.mem_singleton, Fin.ext_iff]
    omega
  rw [hset, Finset.sum_pair (by simp [Fin.ext_iff])]

end Cert.Decode

end
-- ==== Proof.RefSpec.lean ====
/-
  The reference computes the decoder's specification.

  The reference views a row of 2000 hard decisions as 1000 pairs and sums each pair: pair i, member k of the reshaped
  array sits at flat position (b·1000 + i)·2 + k of the row-major order, which is column 2i + k of row b.  So the pair
  sum is the vote count of message position i; the comparisons, the minimum and the select are applied to that count
  entry by entry, and the last sum runs over the thousand message positions of a row.  A sum that starts from the float
  zero starts from the number zero.
-/
import proofs.«181791_j12893491822747_1_alg».proof.Proof.RefReadPatched
import proofs.«181791_j12893491822747_1_alg».proof.Proof.Spec

noncomputable section

namespace Cert.Decode.Ref

open Cert.ReferenceIdeal Cert.ReferenceIdeal.ReadP Idealize.ShloMosaic Idealize.ShloMosaic.ValueIdx Cert.Decode
open scoped BigOperators

variable (X : (⟨S65536x2000, .f32⟩ : BufTy).Contents (Elt Ideal))

/-- Member k of pair i in row b of the reshaped array is column 2i + k of row b. -/
theorem pair_idx (b : Fin 65536) (i : Fin 1000) (k : Fin 2) :
    idx_main_v3 (idx_main_v4 (ix2 b i) k) = ix2 b (⟨2 * i.val + k.val, by omega⟩ : Fin 2000) := by
  have hb := b.isLt; have hi := i.isLt; have hk := k.isLt
  funext a
  match a with
  | ⟨0, _⟩ => exact Fin.ext (by show ((b.val * 1000 + i.val) * 2 + k.val) / 2000 = b.val; omega)
  | ⟨1, _⟩ => exact Fin.ext (by show ((b.val * 1000 + i.val) * 2 + k.val) % 2000 = 2 * i.val + k.val; omega)

/-- The pair sum at (b, i) is the vote count of message position i in row b. -/
theorem ones_at (b : Fin 65536) (i : Fin 1000) :
    val_main_v4 (F := Ideal) X (ix2 b i) = onesRow (rowOf (n := 65536) X b) i := by
  rw [val_main_v4_apply, Fin.sum_univ_two, val_main_v3_apply, val_main_v3_apply, pair_idx, pair_idx,
    val_main_v2_apply, val_main_v2_apply, val_main_v1_apply, val_main_v1_apply, val_main_v0_apply, val_main_v0_apply]
  show Ideal.ofBits .f32 0x00000000#32 + (_ + _) = _
  rw [Ideal.ofBits_zero_f32, zero_add]
  rfl

/-- The reference's first result is the decoded message array. -/
theorem dec_eq : val_main_v7 (F := Ideal) X = decoded (n := 65536) X := by
  funext j
  obtain ⟨b, i, rfl⟩ : ∃ (b : Fin 65536) (i : Fin 1000), j = ix2 b i := ⟨j 0, j 1, eq_ix2 j⟩
  rw [val_main_v7_apply, val_main_v6_apply, val_main_v5_apply, ones_at]
  rfl

/-- The selected error contribution at (b, i). -/
theorem err_at (b : Fin 65536) (i : Fin 1000) :
    val_main_v16 (F := Ideal) X (ix2 b i) = errOf (onesRow (rowOf (n := 65536) X b) i) := by
  rw [val_main_v16_apply, val_main_v12_apply, val_main_v9_apply, val_main_v11_apply, val_main_v15_apply, val_main_v14_apply,
    val_main_v8_apply, val_main_v10_apply, val_main_v13_apply, val_main_call0_v1_apply, ones_at]
  rfl

/-- The reference's second result is the vector of error counts. -/
theorem err_eq : val_main_v17 (F := Ideal) X = errCount (n := 65536) X := by
  funext j
  obtain ⟨b, rfl⟩ : ∃ b : Fin 65536, j = ix1 b := ⟨j 0, eq_ix1 j⟩
  rw [val_main_v17_apply]
  show Ideal.ofBits .f32 0x00000000#32 + _ = ∑ i : Fin 1000, errOf (onesRow (rowOf (n := 65536) X b) i)
  rw [Ideal.ofBits_zero_f32, zero_add]
  refine Finset.sum_congr rfl fun k _ => ?_
  have hidx : idx_main_v17 (ix1 b) k = ix2 b k := by
    funext a
    match a with
    | ⟨0, _⟩ => rfl
    | ⟨1, _⟩ => rfl
  rw [hidx, err_at]

end Cert.Decode.Ref

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.Payload.lean ====
/-
  What the kernel body stores, read at an entry of its blocks.

  The body turns its block of received values into hard decisions (a comparison with one half, the one-bit answer widened
  and converted; a change of float format is the identity on extended reals), multiplies the 512 × 2000 block of decisions
  by the 2000 × 1000 grouping matrix into a zero accumulator, and compares the products entry by entry.  With the
  grouping matrix as the right factor, entry (r, q) of the product is the sum of the two decisions that vote for message
  position q in row r.  The first store is the decoded bit of that count; the second is, per row, the sum over the
  thousand message positions of the count's error contribution, kept as a column.
-/
import proofs.«181791_j12893491822747_1_alg».proof.Proof.Gen.KernelIdeal.Skeleton
import proofs.«181791_j12893491822747_1_alg».proof.Proof.Spec
import proofs.«181791_j12893491822747_1_alg».proof.Proof.LibSplit
import proofs.«181791_j12893491822747_1_alg».proof.Proof.LibLayout
import Idealize.ShloMosaic.PureOps.Ideal.Laws

noncomputable section

namespace Cert.Decode.Body

open Cert.KernelIdeal Cert.KernelIdeal.Gen Idealize.ShloMosaic Idealize.ShloMosaic.ValueIdx Cert.Decode
open scoped BigOperators

/-- The product of the hard decisions with the grouping matrix, at (r, q): the vote count of message position q. -/
theorem pay1_apply (x0 : FVec Ideal S512x2000 .f32) (p : FVec Ideal S2000x1000 .bf16) (hp : IsPool p)
    (r : Fin 512) (q : Fin 1000) :
    k0_pay1 (F := Ideal) x0 p (ix2 r q) = onesRow (rowOf (n := 512) x0 r) q := by
  unfold k0_pay1
  refine (Cert.Bridge.Split.matmul_zero_plain_apply (M := 512) (K := 2000) (N := 1000) _ rfl _ _ r q).trans ?_
  refine (sum_pool _ _ q (fun k => ?_)).trans ?_
  · exact (congrFun (shapeCast_self p _) (ix2 k q)).trans (hp k q)
  · exact congrArg₂ (· + ·) (setWidth_toInt_eq_bit01 _) (setWidth_toInt_eq_bit01 _)

/-- The first store at (r, q): the decoded bit. -/
theorem pay2_apply (x0 : FVec Ideal S512x2000 .f32) (p : FVec Ideal S2000x1000 .bf16) (hp : IsPool p)
    (r : Fin 512) (q : Fin 1000) :
    k0_pay2 (F := Ideal) x0 p (ix2 r q) = decRow (rowOf (n := 512) x0 r) q := by
  unfold k0_pay2
  refine (setWidth_toInt_eq_bit01 _).trans ?_
  show decOf (k0_pay1 (F := Ideal) x0 p (ix2 r q)) = _
  rw [pay1_apply x0 p hp r q]
  rfl

/-- Inserting column k into the row index r gives the entry (r, k). -/
theorem lift_row (h : S512x1000.Reduces [1] S512) (r : Fin 512) (k : Fin 1000) : h.lift (ix1 r) k = ix2 r k := by
  funext a
  match a with
  | ⟨0, _⟩ => exact Fin.ext rfl
  | ⟨1, _⟩ => exact Fin.ext rfl

/-- A sum along the columns of a 512 × 1000 block, read at row r. -/
theorem lane_sum (v : FVec Ideal S512x1000 .f32) (h : S512x1000.Reduces [1] S512) (hφ : FKind.Formats .f32)
    (hacc : (0x00000000#32 : BitVec (FTy.bits .f32)) = FKind.add.neutral .f32 hφ) (r : Fin 512) :
    multiReduction .add [1] S512 v 0x00000000#32 h hφ hacc (ix1 r) = ∑ k : Fin 1000, v (ix2 r k) := by
  refine (Ideal.multiReduction_add_single v _ h hφ hacc (ix1 r)).trans ?_
  exact Finset.sum_congr rfl fun k _ => congrArg v (lift_row h r k)

/-- The second store at (r, 0): the row's error count. -/
theorem pay3_apply (x0 : FVec Ideal S512x2000 .f32) (p : FVec Ideal S2000x1000 .bf16) (hp : IsPool p)
    (r : Fin 512) (u : Fin 1) :
    k0_pay3 (F := Ideal) x0 p (ix2 r u) = errRow (rowOf (n := 512) x0 r) := by
  unfold k0_pay3
  dsimp only
  refine (Cert.Bridge.Layout.shapeCast_a_a1_apply _ _ r u).trans ?_
  refine (lane_sum _ _ _ _ r).trans ?_
  show ∑ k : Fin 1000, errOf (k0_pay1 (F := Ideal) x0 p (ix2 r k)) = ∑ i : Fin 1000, errOf (onesRow (rowOf (n := 512) x0 r) i)
  exact Finset.sum_congr rfl fun k _ => congrArg errOf (pay1_apply x0 p hp r k)

end Cert.Decode.Body

end
-- ==== Proof.PoolMatrix.lean ====
/-
  The grouping matrix the host builds before the kernel is launched.

  Entry (k, q) compares the floor quotient of the row number k by 2 with the column number q, as 32-bit words, and
  converts the one-bit answer to a float: 1 where they agree, 0 elsewhere.  The floor quotient is spelt as the truncated
  quotient, lowered by one where the signs of dividend and divisor differ and the remainder is not zero.  For the row
  numbers 0 … 1999 the dividend is never negative, so the correction never applies and the word is that of k / 2.
  Two words below 2^32 agree exactly when the numbers do.
-/
import proofs.«181791_j12893491822747_1_alg».proof.Proof.Gen.KernelIdeal.Frame
import proofs.«181791_j12893491822747_1_alg».proof.Proof.Spec
import Idealize.ShloMosaic.Lib.StableHlo.Run
import Idealize.ShloMosaic.Lib.ValueIdx

noncomputable section

namespace Cert.Decode.Pool

open Cert.KernelIdeal Cert.KernelIdeal.Gen Idealize.ShloMosaic Idealize.ShloMosaic.TcCoe Idealize.SL.Sem
open Idealize.ShloMosaic.StableHlo Idealize.ShloMosaic.ValueIdx Cert.Decode

/-- The sign of a 32-bit word read signed: 0, -1 or 1. -/
def sgnWord (x : BitVec 32) : BitVec 32 := if x = 0 then 0 else if x.msb then -1 else 1

/-- The floor quotient by 2 as the host spells it on one word. -/
def floorHalf (x : BitVec 32) : BitVec 32 :=
  Scalar.select
    (IntOp.andi (IntOp.cmpi .ne (sgnWord x) (sgnWord 2#32)) (IntOp.cmpi .ne (IntOp.remsi .host x 2#32) 0#32))
    (IntOp.subi (IntOp.divsi .host x 2#32) 1#32) (IntOp.divsi .host x 2#32)

/-- On the row numbers the floor quotient's word is the word of k / 2. -/
theorem floorHalf_row : ∀ k : Fin 2000, floorHalf (BitVec.ofNat 32 k.val) = BitVec.ofNat 32 (k.val / 2) := by
  decide +kernel

/-- Comparing the words of k / 2 and q for equality, read as a number, is 1 where k / 2 = q and 0 elsewhere. -/
theorem pool_entry (k : Fin 2000) (q : Fin 1000) :
    bit01 (IntOp.cmpi .eq (BitVec.ofNat 32 (k.val / 2)) (BitVec.ofNat 32 q.val)) = if k.val / 2 = q.val then 1 else 0 := by
  have hk := k.isLt
  have hq := q.isLt
  by_cases h : k.val / 2 = q.val
  · rw [if_pos h, h]
    simp [IntOp.cmpi, bit01]
  · rw [if_neg h]
    have hne : BitVec.ofNat 32 (k.val / 2) ≠ BitVec.ofNat 32 q.val := by
      intro e
      have e' := congrArg BitVec.toNat e
      simp only [BitVec.toNat_ofNat] at e'
      rw [Nat.mod_eq_of_lt (by omega), Nat.mod_eq_of_lt (by omega)] at e'
      exact h e'
    simp [IntOp.cmpi, bit01, hne]

/-- The host's operations that build the matrix, composed. -/
def poolArr : FVec Ideal S2000x1000 .bf16 :=
  uitofp .bf16 (cmpi .eq
    (select
      (andi
        (cmpi .ne (signi (iotaInDim S2000x1000 32 0))
          (broadcastInDim S2000x1000 ![] bcast_S_S2000x1000 (signi (id (constantI S_ 32 2#32)))))
        (cmpi .ne
          (Host.remsi (iotaInDim S2000x1000 32 0) (broadcastInDim S2000x1000 ![] bcast_S_S2000x1000 (id (constantI S_ 32 2#32))))
          (broadcastInDim S2000x1000 ![] bcast_S_S2000x1000 (constantI S_ 32 0#32))))
      (subi
        (Host.divsi (iotaInDim S2000x1000 32 0) (broadcastInDim S2000x1000 ![] bcast_S_S2000x1000 (id (constantI S_ 32 2#32))))
        (broadcastInDim S2000x1000 ![] bcast_S_S2000x1000 (constantI S_ 32 1#32)))
      (Host.divsi (iotaInDim S2000x1000 32 0) (broadcastInDim S2000x1000 ![] bcast_S_S2000x1000 (id (constantI S_ 32 2#32)))))
    (iotaInDim S2000x1000 32 1))

/-- The composed operations give the grouping matrix. -/
theorem poolArr_isPool : IsPool poolArr := by
  intro k q
  show bit01 (IntOp.cmpi .eq (floorHalf (BitVec.ofNat 32 k.val)) (BitVec.ofNat 32 q.val)) = _
  rw [floorHalf_row k]
  exact pool_entry k q

set_option maxHeartbeats 2000000 in
/-- When the kernel is launched its second operand holds the composed operations' value. -/
theorem V_pool (m : (ℓ : Loc nD τ sig) → Buf (Elt Ideal) ℓ) (c : Dev nD) :
    (Gen.V m c main_v4 : S2000x1000.Idx → EReal) = poolArr := by
  dsimp only [Gen.V, Gen.V0]
  simp only [Gen.hostOps0, Gen.hostOps0_1, Gen.hostOps0_2, List.flatten_cons, List.flatten_nil, List.append_nil, List.cons_append,
    List.nil_append]
  after_results_simp
  rfl

end Cert.Decode.Pool

end
-- ==== Proof.KernelValue.lean ====
/-
  The kernel's two output arrays after the run.

  Grid point t stages rows 512t … 512t + 511 of the received array, the whole grouping matrix, and writes back rows
  512t … 512t + 511 of the decoded array and of the error column.  Entry (r, q) of what it writes is the decoder's value
  for row 512t + r of the received array, because the staged block's row r IS that row.  The 128 points' row bands
  tile the 65536 rows (row b lies in band b / 512), so after the run each output array is the decoder's function of the
  received array as the kernel found it, at every index.
-/
import proofs.«181791_j12893491822747_1_alg».proof.Proof.Gen.KernelIdeal.Frame
import proofs.«181791_j12893491822747_1_alg».proof.Proof.Payload
import proofs.«181791_j12893491822747_1_alg».proof.Proof.PoolMatrix
import Idealize.ShloMosaic.Lib.Pipeline.Value

noncomputable section

open Idealize.ShloMosaic Idealize.ShloMosaic.TcCoe Idealize.SL.Sem
open Idealize.ShloMosaic.Pipeline (Dat)

namespace Cert.Decode.Arrays

open Cert.KernelIdeal Cert.KernelIdeal.Gen Idealize.ShloMosaic.ValueIdx Cert.Decode

variable (m : (ℓ : Loc nD τ sig) → Buf (Elt Ideal) ℓ) (ρ : Dev nD → PrngReg)

theorem hz : (![0, 0] : Fin 2 → Nat) = fun _ => 0 := funext fun a => by fin_cases a <;> rfl

/-- The windows' block indices at point t: the three banded windows sit at row band t, column band 0; the grouping
    matrix's window always at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The received array as the kernel finds it. -/
abbrev recv (c : Dev nD) : (⟨2, ![65536, 2000]⟩ : Shape).Idx → EReal := V m c main_arg0

/-- Entry x of the staged block of received values at point t is entry (512t + x₀, x₁) of the received array. -/
theorem iblk0_apply (c : Dev nD) (t : Fin cfg0.N) (x : S512x2000.Idx) (k : S65536x2000.Idx)
    (hk0 : (k 0).val = t.val * 512 + (x 0).val) (hk1 : (k 1).val = (x 1).val) :
    (iblk m c 0 t : FVec Ideal S512x2000 .f32) x = recv m c k := by
  obtain ⟨e0, e1, -⟩ := idx_facts t
  show recv m c (((cfg0.win 0).blk t).view.emb x) = _
  refine congrArg (recv m c) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 2000 + 1 * (x 1).val = (k 1).val; rw [e1, hk1]; omega

/-- The staged grouping matrix at any point is the whole matrix the host built. -/
theorem iblk1_eq (c : Dev nD) (t : Fin cfg0.N) :
    (iblk m c 1 t : FVec Ideal S2000x1000 .bf16) = (V m c main_v4 : S2000x1000.Idx → EReal) := by
  obtain ⟨-, -, e2, e3, -⟩ := idx_facts t
  funext x
  show (V m c main_v4 : S2000x1000.Idx → EReal) (((cfg0.win 1).blk t).view.emb x) = _
  refine congrArg (V m c main_v4 : S2000x1000.Idx → EReal) (funext fun a => Fin.ext ?_)
  match a with
  | ⟨0, _⟩ => show win0_1.index t (0 : Fin 2) * 2000 + 1 * (x 0).val = (x 0).val; rw [e2]; omega
  | ⟨1, _⟩ => show win0_1.index t (1 : Fin 2) * 1000 + 1 * (x 1).val = (x 1).val; rw [e3]; omega

/-- So it is the grouping matrix. -/
theorem pool_blk (c : Dev nD) (t : Fin cfg0.N) : IsPool (iblk m c 1 t : FVec Ideal S2000x1000 .bf16) := by
  have h : (iblk m c 1 t : FVec Ideal S2000x1000 .bf16) = Pool.poolArr := (iblk1_eq m c t).trans (Pool.V_pool m c)
  exact fun k q => (congrFun h (ix2 k q)).trans (Pool.poolArr_isPool k q)

/-- The first store at block entry y is the decoded array of A at i, when the block's row of y is A's row of i and the
    columns agree. -/
theorem block_dec (A : (⟨2, ![65536, 2000]⟩ : Shape).Idx → EReal) (x0 : FVec Ideal S512x2000 .f32)
    (p : FVec Ideal S2000x1000 .bf16) (hp : IsPool p) (y : S512x1000.Idx) (i : S65536x1000.Idx)
    (hx : ∀ k : Fin 2000, x0 (ix2 (y 0) k) = A (ix2 (i 0) k)) (hi : (i 1).val = (y 1).val) :
    k0_pay2 (F := Ideal) x0 p y = decoded (n := 65536) A i := by
  obtain ⟨r, q, rfl⟩ : ∃ (r : Fin 512) (q : Fin 1000), y = ix2 r q := ⟨y 0, y 1, eq_ix2 y⟩
  obtain ⟨b, j, rfl⟩ : ∃ (b : Fin 65536) (j : Fin 1000), i = ix2 b j := ⟨i 0, i 1, eq_ix2 i⟩
  obtain rfl : j = q := Fin.ext hi
  rw [Body.pay2_apply x0 p hp r j]
  show decRow (rowOf (n := 512) x0 r) j = decRow (rowOf (n := 65536) A b) j
  exact congrArg (fun row => decRow row j) (funext fun k => hx k)

/-- The second store at block entry y is the error column of A at i, when the block's row of y is A's row of i. -/
theorem block_err (A : (⟨2, ![65536, 2000]⟩ : Shape).Idx → EReal) (x0 : FVec Ideal S512x2000 .f32)
    (p : FVec Ideal S2000x1000 .bf16) (hp : IsPool p) (y : S512x1.Idx) (i : S65536x1.Idx)
    (hx : ∀ k : Fin 2000, x0 (ix2 (y 0) k) = A (ix2 (i 0) k)) :
    k0_pay3 (F := Ideal) x0 p y = errColumn (n := 65536) A i := by
  obtain ⟨r, u, rfl⟩ : ∃ (r : Fin 512) (u : Fin 1), y = ix2 r u := ⟨y 0, y 1, eq_ix2 y⟩
  rw [Body.pay3_apply x0 p hp r u]
  show errRow (rowOf (n := 512) x0 r) = errRow (rowOf (n := 65536) A (i 0))
  exact congrArg errRow (funext fun k => hx k)

/-- The decoded array of the received array, as the contents of the first output's buffer. -/
abbrev decArr (c : Dev nD) : Buf (Elt Ideal) ((c : Thread nD τ).loc main_v5_0) := decoded (n := 65536) (recv m c)

/-- The error column of the received array, as the contents of the second output's buffer. -/
abbrev errArr (c : Dev nD) : Buf (Elt Ideal) ((c : Thread nD τ).loc main_v5_1) := errColumn (n := 65536) (recv m c)

/-- What point t writes back to the decoded array is block t of the decoded array of the received array. -/
theorem flushed2_eq (c : Dev nD) (t : Fin cfg0.N) :
    (dats m 0 c).flushed 2 t = ((cfg0.win 2).blk t).view.read (Elt Ideal) (decArr m c) := by
  show (cfg0.win 2).cut (grid0.coords t) ((dats m 0 c).after 2 t) = _
  rw [after0_2]
  unfold out0_2
  rw [View.canon_unit_zero hz]
  simp only [View.ld_unit_zero (S := S512x2000) hz, View.ld_unit_zero (S := S2000x1000) hz]
  obtain ⟨-, -, -, -, e4, e5, -, -⟩ := idx_facts t
  funext y
  show k0_pay2 (F := Ideal) (iblk m c 0 t) (iblk m c 1 t) y = decoded (n := 65536) (recv m c) (((cfg0.win 2).blk t).view.emb y)
  refine block_dec (recv m c) (iblk m c 0 t) (iblk m c 1 t) (pool_blk m c t) y (((cfg0.win 2).blk t).view.emb y) (fun k => ?_) ?_
  · refine iblk0_apply m c t (ix2 (y 0) k) (ix2 ((((cfg0.win 2).blk t).view.emb y) 0) k) ?_ rfl
    show win0_2.index t (0 : Fin 2) * 512 + 1 * (y 0).val = t.val * 512 + (y 0).val
    rw [e4]; omega
  · show win0_2.index t (1 : Fin 2) * 1000 + 1 * (y 1).val = (y 1).val
    rw [e5]; omega

/-- What point t writes back to the error column is block t of the error column of the received array. -/
theorem flushed3_eq (c : Dev nD) (t : Fin cfg0.N) :
    (dats m 0 c).flushed 3 t = ((cfg0.win 3).blk t).view.read (Elt Ideal) (errArr m c) := by
  show (cfg0.win 3).cut (grid0.coords t) ((dats m 0 c).after 3 t) = _
  rw [after0_3]
  unfold out0_3
  rw [View.canon_unit_zero hz]
  simp only [View.ld_unit_zero (S := S512x2000) hz, View.ld_unit_zero (S := S2000x1000) hz]
  obtain ⟨-, -, -, -, -, -, e6, e7⟩ := idx_facts t
  funext y
  show k0_pay3 (F := Ideal) (iblk m c 0 t) (iblk m c 1 t) y = errColumn (n := 65536) (recv m c) (((cfg0.win 3).blk t).view.emb y)
  refine block_err (recv m c) (iblk m c 0 t) (iblk m c 1 t) (pool_blk m c t) y (((cfg0.win 3).blk t).view.emb y) (fun k => ?_)
  refine iblk0_apply m c t (ix2 (y 0) k) (ix2 ((((cfg0.win 3).blk t).view.emb y) 0) k) ?_ rfl
  show win0_3.index t (0 : Fin 2) * 512 + 1 * (y 0).val = t.val * 512 + (y 0).val
  rw [e6]; omega

/-- An index of the decoded array is in point t's block iff each coordinate is in the block's range. -/
theorem mem_blk2 (t : Fin cfg0.N) (i : S65536x1000.Idx) :
    i ∈ ((cfg0.win 2).blk t).view.set ↔ ∀ a : Fin 2, win0_2.index t a * S512x1000.size a ≤ (i a).val ∧ (i a).val < win0_2.index t a * S512x1000.size a + S512x1000.size a := by
  show i ∈ ((View.whole main_v5_0).slice (win0_2.rect t)).set ↔ _
  rw [View.set_slice_whole, Rect.mem_set_unit]
  exact Iff.rfl

/-- The same for the error column. -/
theorem mem_blk3 (t : Fin cfg0.N) (i : S65536x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v5_1).slice (win0_3.rect t)).set ↔ _
  rw [View.set_slice_whole, Rect.mem_set_unit]
  exact Iff.rfl

/-- Row b of the decoded array lies in the block of point b / 512. -/
theorem cover2 (i : S65536x1000.Idx) : ∃ t : Fin cfg0.N, (cfg0.win 2).flush t = true ∧ i ∈ ((cfg0.win 2).blk t).view.set := by
  have hN : cfg0.N = 128 := N_0
  have hi0 : (i 0).val < 65536 := (i 0).isLt
  have hi1 : (i 1).val < 1000 := (i 1).isLt
  obtain ⟨t, ht⟩ : ∃ t : Fin cfg0.N, t.val = (i 0).val / 512 := ⟨⟨(i 0).val / 512, by omega⟩, rfl⟩
  obtain ⟨-, -, -, -, e4, e5, -, -⟩ := idx_facts t
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; rw [e4, ht]; omega
  | ⟨1, _⟩ => show win0_2.index t (1 : Fin 2) * 1000 ≤ (i 1).val ∧ (i 1).val < win0_2.index t (1 : Fin 2) * 1000 + 1000; rw [e5]; omega

/-- Row b of the error column lies in the block of point b / 512. -/
theorem cover3 (i : S65536x1.Idx) : ∃ t : Fin cfg0.N, (cfg0.win 3).flush t = true ∧ i ∈ ((cfg0.win 3).blk t).view.set := by
  have hN : cfg0.N = 128 := N_0
  have hi0 : (i 0).val < 65536 := (i 0).isLt
  have hi1 : (i 1).val < 1 := (i 1).isLt
  obtain ⟨t, ht⟩ : ∃ t : Fin cfg0.N, t.val = (i 0).val / 512 := ⟨⟨(i 0).val / 512, by omega⟩, rfl⟩
  obtain ⟨-, -, -, -, -, -, e6, e7⟩ := idx_facts t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; rw [e6, ht]; omega
  | ⟨1, _⟩ => show win0_3.index t (1 : Fin 2) * 1 ≤ (i 1).val ∧ (i 1).val < win0_3.index t (1 : Fin 2) * 1 + 1; rw [e7]; omega

/-- After the run the first output array is the decoded array of the received array. -/
theorem final2 (c : Dev nD) : (dats m 0 c).arrAt 2 cfg0.N = decArr m c :=
  (dats m 0 c).arrAt_eq_of_cover 2 (decArr m c) (fun t _ => flushed2_eq m c t) cover2

/-- After the run the second output array is the error column of the received array. -/
theorem final3 (c : Dev nD) : (dats m 0 c).arrAt 3 cfg0.N = errArr m c :=
  (dats m 0 c).arrAt_eq_of_cover 3 (errArr m c) (fun t _ => flushed3_eq m c t) cover3

end Cert.Decode.Arrays

end
-- ==== Proof.KernelRun.lean ====
/-
  The idealized kernel program's run, read: its two results as functions of the received array.

  After the kernel the host reshapes the error column [65536, 1] into the vector [65536]: entry b of the vector is
  entry (b, 0) of the column, the same flat position of the row-major order.  The column is the kernel's second output
  array, which after the run is the error column of the received array; the received array is never written, so it is
  the array the program was launched with.
-/
import proofs.«181791_j12893491822747_1_alg».proof.Proof.KernelValue
import Idealize.ShloMosaic.Lib.StableHlo.Run

noncomputable section

open Idealize.ShloMosaic Idealize.ShloMosaic.TcCoe Idealize.SL.Sem
open Idealize.ShloMosaic.Pipeline (Dat)

namespace Cert.Decode.Arrays

open Cert.KernelIdeal Cert.KernelIdeal.Gen Idealize.ShloMosaic.StableHlo Idealize.ShloMosaic.ValueIdx Cert.Decode

variable (m : (ℓ : Loc nD τ sig) → Buf (Elt Ideal) ℓ) (ρ : Dev nD → PrngReg)

/-- A column [a, 1] cast to the vector [a] reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The received array as the kernel finds it is the array the program was launched with. -/
theorem recv_eq (c : Dev nD) : recv m c = m ((c : Thread nD τ).loc main_arg0) := V_main_arg0 m c

/-- The vector the host makes of the kernel's error column is the vector of error counts. -/
theorem tail_eq (c : Dev nD) :
    (Pipeline.afterTail₀ cfgs (dats m) 0 (V0 m) [hostOps1] c main_v6 : S65536.Idx → EReal) = errCount (n := 65536) (recv m c) := by
  have hW : (Pipeline.withArrays spec0 c (V0 m c) (fun w => (dats m 0 c).arrAt w cfg0.N) (Proc.devRef .tc main_v5_1) : S65536x1.Idx → EReal)
      = errArr m c :=
    (Pipeline.withArrays_arr spec0 launch0.win.arr_inj c (V0 m c) (fun w => (dats m 0 c).arrAt w cfg0.N) 3).trans (final3 m c)
  unfold Pipeline.afterTail₀
  show StableHlo.after hostOps1 _ (Proc.devRef .tc main_v6) = _
  after_results
  funext i
  obtain ⟨b, rfl⟩ : ∃ b : Fin 65536, i = ix1 b := ⟨i 0, eq_ix1 i⟩
  show shapeCast S65536 (Pipeline.withArrays spec0 c (V0 m c) (fun w => (dats m 0 c).arrAt w cfg0.N) (Proc.devRef .tc main_v5_1) : S65536x1.Idx → EReal)
    shapeCasts_S65536x1_S65536 (ix1 b) = _
  rw [hW]
  exact shapeCast_a1_a_apply _ _ b

/-- Every weakly fair execution of the idealized kernel program terminates with its first result at the decoded array
    and its second at the vector of error counts of the array it was launched with, that array unchanged. -/
theorem run : θ_run defs (onTc (τ := τ) (main (F := Ideal))) ⟨m, fun _ => 0, ρ⟩ fun r => ∀ c : Dev nD,
      r.2.mem ((c : Thread nD τ).loc main_v5_0) = decoded (n := 65536) (m ((c : Thread nD τ).loc main_arg0))
      ∧ r.2.mem ((c : Thread nD τ).loc main_v6) = errCount (n := 65536) (m ((c : Thread nD τ).loc main_arg0))
      ∧ r.2.mem ((c : Thread nD τ).loc main_arg0) = m ((c : Thread nD τ).loc main_arg0) :=
  (θ_run defs _ _).mono (fun r h c =>
    ⟨((h c).1 2).trans ((final2 m c).trans (congrArg (decoded (n := 65536)) (recv_eq m c))),
      ((h c).2 main_v6 (Pipeline.mem_restRefs_of main_v6 (by decide) (by decide))).trans
        ((tail_eq m c).trans (congrArg (errCount (n := 65536)) (recv_eq m c))),
      ((h c).1 0).trans (((dats m 0 c).arrAt_in 0 rfl _).trans ((A_eq m c 0).trans (V_main_arg0 m c)))⟩)
    (run_main m ρ)

end Cert.Decode.Arrays

end
-- ==== Proof.lean ====
/-
  The kernel decodes a repetition code by majority vote: each of 65536 received rows of 2000 values is decided hard at
  one half, consecutive pairs of decisions vote for one of 1000 message bits, the decoded bit is 1 where both votes are 1,
  and a row's error count sums min(s, 2 - s) over the positions whose vote count s is strictly between 0 and 2.

  The kernel forms the vote counts as a matrix product of the hard decisions with a 0/1 grouping matrix (entry (k, q) is
  1 where k / 2 = q); the reference reshapes a row into 1000 pairs and sums each pair.  At the ideal instance the
  product's entry (r, q) is a sum of 2000 terms of which all but two are a vote times zero, so both programs compute the
  same count, and every later operation is applied entry by entry with the same constants.  No law used needs a finite
  argument: a comparison of any extended real with one half is a bit, and the votes are 0 or 1.

  Frames: the two kernel programs' by their generated frame proofs, the reference's from its run.  The ideal pass rewrote
  nothing, so the idealization claim is trivially true.  The algebraic claim puts the two runs side by side.
-/
import proofs.«181791_j12893491822747_1_alg».proof.Defs
import proofs.«181791_j12893491822747_1_alg».proof.Proof.Gen.Kernel
import proofs.«181791_j12893491822747_1_alg».proof.Proof.Gen.Kernel.Skeleton
import proofs.«181791_j12893491822747_1_alg».proof.Proof.Gen.Kernel.Launch
import proofs.«181791_j12893491822747_1_alg».proof.Proof.Gen.Kernel.Points
import proofs.«181791_j12893491822747_1_alg».proof.Proof.Gen.Kernel.Frame
import proofs.«181791_j12893491822747_1_alg».proof.Proof.Gen.KernelIdeal
import proofs.«181791_j12893491822747_1_alg».proof.Proof.Gen.KernelIdeal.Skeleton
import proofs.«181791_j12893491822747_1_alg».proof.Proof.Gen.KernelIdeal.Launch
import proofs.«181791_j12893491822747_1_alg».proof.Proof.Gen.KernelIdeal.Points
import proofs.«181791_j12893491822747_1_alg».proof.Proof.Gen.KernelIdeal.Frame
import proofs.«181791_j12893491822747_1_alg».proof.Proof.Gen.ReferenceIdeal
import proofs.«181791_j12893491822747_1_alg».proof.Proof.Gen.Pre_finite_inputs
import proofs.«181791_j12893491822747_1_alg».proof.Proof.RefReadPatched
import proofs.«181791_j12893491822747_1_alg».proof.Proof.RefSpec
import proofs.«181791_j12893491822747_1_alg».proof.Proof.KernelRun
import Idealize.ShloMosaic.Adequacy
import Idealize.ShloMosaic.Init

noncomputable section

namespace Cert.Proof

open Idealize.ShloMosaic Idealize.ShloMosaic.TcCoe Idealize.SL.Sem Cert.Decode

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories that agree on the received array both programs end with the decoded array and the vector of error
    counts of that array: the kernel's run states it, and the reference's two result terms are those functions. -/
theorem algebraic : Cert.algebraic_KernelIdeal_ReferenceIdeal := by
  intro m ρ m' ρ' _ hagree
  refine ⟨fun c => decoded (n := 65536) (m ((c.tc : Thread Cert.KernelIdeal.nD Cert.KernelIdeal.τ).loc Cert.KernelIdeal.main_arg0)),
    fun c => errCount (n := 65536) (m ((c.tc : Thread Cert.KernelIdeal.nD Cert.KernelIdeal.τ).loc Cert.KernelIdeal.main_arg0)),
    Cert.Decode.Arrays.run m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v7_eq, Cert.Decode.Ref.dec_eq, hagree c]
  · rw [(h c).2.1, Cert.ReferenceIdeal.ReadP.val_main_v17_eq, Cert.Decode.Ref.err_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
